-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S2048x32 : Shape := ⟨2, ![2048, 32]⟩
abbrev S1024x32 : Shape := ⟨2, ![1024, 32]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  main_v18

def fn {F : FTy → Type} [FloatOps F] (main_arg0 : FVec F S16x2048x1024 .f32) (main_arg1 : FVec F S2048x32 .f32) (main_arg2 : FVec F S1024x32 .f32) (main_arg3 : FVec F S1024x32 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S1024x32 .f32 := Host.absf main_arg2
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_v13 main_v16
-- ==== Kernel.lean ====
abbrev S16x2048x1024 : Shape := ⟨3, ![16, 2048, 1024]⟩
abbrev S2048x32 : Shape := ⟨2, ![2048, 32]⟩
abbrev S1024x32 : Shape := ⟨2, ![1024, 32]⟩
abbrev S1x1024x1024 : Shape := ⟨3, ![1, 1024, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S2048x32, .f32⟩
  | .hbm, ⟨2, _⟩ => ⟨S1024x32, .f32⟩
  | .hbm, ⟨3, _⟩ => ⟨S1024x32, .f32⟩
  | .hbm, ⟨4, _⟩ => ⟨S1024x32, .bf16⟩
  | .hbm, ⟨5, _⟩ => ⟨S1024x32, .bf16⟩
  | .hbm, ⟨6, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x32, .bf16⟩
  | .local _ .vmem, ⟨3, _⟩ => ⟨S1024x32, .f32⟩
  | .local _ .vmem, ⟨4, _⟩ => ⟨S1024x32, .f32⟩
  | .local _ .vmem, ⟨5, _⟩ => ⟨S1024x32, .bf16⟩
  | .local _ .vmem, ⟨6, _⟩ => ⟨S1x1024x1024, .f32⟩
  | .local _ .vmem, ⟨7, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  shapeCasts_S1024x1024_S1x1024x1024 : S1024x1024.ShapeCasts S1x1024x1024
  dot_S1024x1024_S1024x32_S1024x32_1_0_0_1_n_n_wf : DotDims.WF S1024x1024 S1024x32 S1024x32 [1] [0] [0] [1] [] []
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x1024.size a
  hwx0_0 : ∀ i : grid0.Coords, EltTy.bits .f32 = 32 ∨ (Rect.block (s := S16x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S1024x32.size a
  hwx0_1 : ∀ i : grid0.Coords, EltTy.bits .bf16 = 32 ∨ (Rect.block (s := S1024x32) S1024x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S2048x32.size a
  hwx0_2 : ∀ i : grid0.Coords, EltTy.bits .f32 = 32 ∨ (Rect.block (s := S2048x32) S1024x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .bf16 = 32 ∨ (Rect.block (s := S1024x32) S1024x32.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x2048x1024.size a
  hwx0_4 : ∀ i : grid0.Coords, EltTy.bits .f32 = 32 ∨ (Rect.block (s := S16x2048x1024) S1x1024x1024.size (cc0_transform_4 i) (hinb0_4 i)).WholeWords (EltTy.packing .f32)

variable [Facts₀]

def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S2048x32 : Shape := ⟨2, ![2048, 32]⟩
abbrev S1024x32 : Shape := ⟨2, ![1024, 32]⟩
abbrev S16x2048x32 : Shape := ⟨3, ![16, 2048, 32]⟩
abbrev S1x2048x32 : Shape := ⟨3, ![1, 2048, 32]⟩

abbrev nBuf : Space → Nat
  | .hbm => 9
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2048x32, .f32⟩
  | .hbm, ⟨2, _⟩ => ⟨S1024x32, .f32⟩
  | .hbm, ⟨3, _⟩ => ⟨S1024x32, .f32⟩
  | .hbm, ⟨4, _⟩ => ⟨S16x2048x32, .f32⟩
  | .hbm, ⟨5, _⟩ => ⟨S1x2048x32, .f32⟩
  | .hbm, ⟨6, _⟩ => ⟨S16x2048x32, .f32⟩
  | .hbm, ⟨7, _⟩ => ⟨S16x2048x32, .f32⟩
  | .hbm, ⟨8, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048x32_S1x2048x32_1_2 : S2048x32.BroadcastsInDim S1x2048x32 (![1, 2] : Fin 2 → Fin S1x2048x32.rank)
  bcast_S1x2048x32_S16x2048x32_0_1_2 : S1x2048x32.BroadcastsInDim S16x2048x32 (![0, 1, 2] : Fin 3 → Fin S16x2048x32.rank)
  dot_S16x2048x1024_S1024x32_S16x2048x32_2_0_01_1_n_n_wf : DotDims.WF S16x2048x1024 S1024x32 S16x2048x32 [2] [0] [0, 1] [1] [] []
  dot_S16x2048x32_S1024x32_S16x2048x1024_2_1_01_0_n_n_wf : DotDims.WF S16x2048x32 S1024x32 S16x2048x1024 [2] [1] [0, 1] [0] [] []

variable [Facts₀]

def dot_S16x2048x1024_S1024x32_S16x2048x32_2_0_01_1_n_n : DotDims S16x2048x1024 S1024x32 S16x2048x32 where
  lhsContracting := [2]
  rhsContracting := [0]
  lhsNonContracting := [0, 1]
  rhsNonContracting := [1]
  lhsBatch := []
  rhsBatch := []
  wf := dot_S16x2048x1024_S1024x32_S16x2048x32_2_0_01_1_n_n_wf
def dot_S16x2048x32_S1024x32_S16x2048x1024_2_1_01_0_n_n : DotDims S16x2048x32 S1024x32 S16x2048x1024 where
  lhsContracting := [2]
  rhsContracting := [1]
  lhsNonContracting := [0, 1]
  rhsNonContracting := [0]
  lhsBatch := []
  rhsBatch := []
  wf := dot_S16x2048x32_S1024x32_S16x2048x1024_2_1_01_0_n_n_wf

class Facts : Prop extends Facts₀ where

variable [Facts]
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«136521_j22634477650317_2_alg».proof.Proof.LibPlainDot
import proofs.«136521_j22634477650317_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.Payload.lean ====
/-
  What the kernel body stores, read at an index.

  The body works on one tile: a [1, 1024, 1024] slab of x (its leading unit axis cast away), the whole of Wy [1024, 32],
  1024 rows of Wx [1024, 32], and the whole of Wz [1024, 32]. It forms t = (x_tile · Wy) ∘ Wx, a [1024, 32] tile, then
  t · Wzᵀ, a [1024, 1024] tile, and stores that with the unit axis cast back. Both products go into a zero accumulator,
  and the changes of float format on the way are the identity on extended reals. So the stored entry (u, p, q) is

      ∑ f < 32, ((∑ j < 1024, x_tile (0, p, j) · Wy (j, f)) · Wx_tile (p, f)) · Wz (q, f).
-/
import proofs.«136521_j22634477650317_2_alg».proof.Proof.Gen.KernelIdeal.Skeleton
import proofs.«136521_j22634477650317_2_alg».proof.Proof.LibZeroAccDots
import Idealize.ShloMosaic.Lib.ValueLayout
import Idealize.ShloMosaic.Lib.Pipeline.Value

open scoped BigOperators

noncomputable section

namespace Cert.KernelIdeal.Body

open Cert.KernelIdeal Cert.KernelIdeal.Gen Idealize.ShloMosaic Idealize.ShloMosaic.ValueIdx

/-- Equal factors give equal products. -/
theorem mul_congr {a a' b b' : EReal} (h₁ : a = a') (h₂ : b = b') : a * b = a' * b' := by rw [h₁, h₂]

/-- The stored tile at `(u, p, q)`: row `p` of the slab contracted with `Wy`, gated by row `p` of the `Wx` tile, then
    contracted with row `q` of `Wz`. -/
theorem tile_apply (v0 : Vec Ideal S1x1024x1024 .f32) (v3 : Vec Ideal S1024x32 .bf16) (v6 : Vec Ideal S1024x32 .f32)
    (v9 : Vec Ideal S1024x32 .bf16) (u : Fin 1) (p q : Fin 1024) :
    k0_pay1 (F := Ideal) v0 v3 v6 v9 (ix3 u p q)
      = ∑ f : Fin 32, ((∑ j : Fin 1024, v0 (ix3 (0 : Fin 1) p j) * v3 (ix2 j f)) * v6 (ix2 p f)) * v9 (ix2 q f) := by
  unfold k0_pay1
  refine (shapeCast_ab_1ab_apply _ _ u p q).trans ?_
  refine (Cert.ZeroAccDots.rows_rows dot_S1024x32_S1024x32_S1024x1024_1_1_0_0_n_n rfl rfl rfl rfl rfl rfl rfl rfl none _ _ p q).trans ?_
  refine Finset.sum_congr rfl fun f _ => ?_
  refine mul_congr ?_ (congrFun (shapeCast_self v9 _) (ix2 q f))
  refine (truncf_apply (φ := .f32) (ψ := .bf16) _ bitsLt_bf16_f32 (ix2 p f)).trans ?_
  refine (mulf_apply (φ := .f32) _ v6 (ix2 p f)).trans ?_
  refine mul_congr ?_ rfl
  refine (Cert.ZeroAccDots.rows_columns dot_S1024x1024_S1024x32_S1024x32_1_0_0_1_n_n rfl rfl rfl rfl rfl rfl rfl rfl none _ _ p f).trans ?_
  refine Finset.sum_congr rfl fun j _ => ?_
  refine mul_congr ?_ (congrFun (shapeCast_self v3 _) (ix2 j f))
  refine (truncf_apply (φ := .f32) (ψ := .bf16) _ bitsLt_bf16_f32 (ix2 p j)).trans ?_
  exact shapeCast_1ab_ab_apply v0 _ p j

/-- The same at any index of the tile: its coordinate on the unit axis plays no part. -/
theorem tile_at (v0 : Vec Ideal S1x1024x1024 .f32) (v3 : Vec Ideal S1024x32 .bf16) (v6 : Vec Ideal S1024x32 .f32)
    (v9 : Vec Ideal S1024x32 .bf16) (y : S1x1024x1024.Idx) :
    k0_pay1 (F := Ideal) v0 v3 v6 v9 y
      = ∑ f : Fin 32, ((∑ j : Fin 1024, v0 (ix3 (0 : Fin 1) (y 1) j) * v3 (ix2 j f)) * v6 (ix2 (y 1) f)) * v9 (ix2 (y 2) f) := by
  obtain ⟨u, p, q, rfl⟩ : ∃ (u : Fin 1) (p q : Fin 1024), y = ix3 u p q := ⟨y 0, y 1, y 2, eq_ix3 y⟩
  exact tile_apply v0 v3 v6 v9 u p q

end Cert.KernelIdeal.Body

end
-- ==== Proof.Spec.lean ====
/-
  The gated two-stage contraction, as one function of the four argument arrays.

  For a batch of matrices x[b, i, j] and three factor matrices Wx[i, f], Wy[j, f], Wz[k, f] over F = 32 features:

    feature b i f = (∑ j, x[b, i, j] · Wy[j, f]) · Wx[i, f]          (contract the columns, then gate by row i's factor)
    entry   b i k = ∑ f, feature b i f · Wz[k, f]                    (contract the features against row k of Wz)

  Both programs compute exactly this, with the sums in this order: the inner sum over j is formed first, multiplied
  by the gate, and only then summed over f. No sum is re-associated and no factor is moved across a sum, so nothing
  here needs the entries to be finite: the equation between the two programs is an identity of terms over the extended
  reals, read index by index.
-/
import Idealize.ShloMosaic.Lib.ValueIdx
import Idealize.ShloMosaic.PureOps.Ideal

open scoped BigOperators

noncomputable section

namespace Cert.GatedContraction

open Idealize.ShloMosaic Idealize.ShloMosaic.ValueIdx

/-- Row `(b, i)`'s gated feature `f`: the row's contraction with column `f` of `Wy`, times `Wx[i, f]`. -/
def feature (x : (⟨3, ![16, 2048, 1024]⟩ : Shape).Idx → EReal) (wx : (⟨2, ![2048, 32]⟩ : Shape).Idx → EReal)
    (wy : (⟨2, ![1024, 32]⟩ : Shape).Idx → EReal) (b : Fin 16) (i : Fin 2048) (f : Fin 32) : EReal :=
  (∑ j : Fin 1024, x (ix3 b i j) * wy (ix2 j f)) * wx (ix2 i f)

/-- The result's entry `(b, i, k)`: the row's gated features contracted with row `k` of `Wz`. -/
def entry (x : (⟨3, ![16, 2048, 1024]⟩ : Shape).Idx → EReal) (wx : (⟨2, ![2048, 32]⟩ : Shape).Idx → EReal)
    (wy wz : (⟨2, ![1024, 32]⟩ : Shape).Idx → EReal) (b : Fin 16) (i : Fin 2048) (k : Fin 1024) : EReal :=
  ∑ f : Fin 32, feature x wx wy b i f * wz (ix2 k f)

/-- The whole result array. -/
def result (x : (⟨3, ![16, 2048, 1024]⟩ : Shape).Idx → EReal) (wx : (⟨2, ![2048, 32]⟩ : Shape).Idx → EReal)
    (wy wz : (⟨2, ![1024, 32]⟩ : Shape).Idx → EReal) : (⟨3, ![16, 2048, 1024]⟩ : Shape).Idx → EReal :=
  fun idx => entry x wx wy wz (idx 0) (idx 1) (idx 2)

theorem result_ix3 (x : (⟨3, ![16, 2048, 1024]⟩ : Shape).Idx → EReal) (wx : (⟨2, ![2048, 32]⟩ : Shape).Idx → EReal)
    (wy wz : (⟨2, ![1024, 32]⟩ : Shape).Idx → EReal) (b : Fin 16) (i : Fin 2048) (k : Fin 1024) :
    result x wx wy wz (ix3 b i k) = entry x wx wy wz b i k := rfl

end Cert.GatedContraction

end
-- ==== Proof.Blocks.lean ====
/-
  From tiles to the whole array.

  The grid has 16 × 2 points. At point (b, h) the body sees the slab x[b, 1024h … 1024h + 1023, :], rows 1024h … of Wx,
  and all of Wy and Wz (the two the host has first re-typed to a narrower float format, which changes no extended
  real), and writes back the tile out[b, 1024h … 1024h + 1023, :]. What it writes at (u, p, q) of the tile is, by the
  body's stored value read at an index, the gated contraction's entry (b, 1024h + p, q) of the arguments: row p of the
  slab is row 1024h + p of batch b, row p of the Wx tile is row 1024h + p of Wx, and row q of Wz is row q. The 32 tiles
  cover the result array, so after the run the array IS the gated contraction of the arguments as launched.
-/
import proofs.«136521_j22634477650317_2_alg».proof.Proof.Gen.KernelIdeal.Value
import proofs.«136521_j22634477650317_2_alg».proof.Proof.Payload
import proofs.«136521_j22634477650317_2_alg».proof.Proof.Spec
import Idealize.ShloMosaic.Lib.Pipeline.Value
import Idealize.ShloMosaic.Lib.StableHlo.Run

open scoped BigOperators

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.GatedContraction Idealize.ShloMosaic.ValueIdx

variable (m : (ℓ : Loc nD τ sig) → Buf (Elt Ideal) ℓ) (ρ : Dev nD → PrngReg)

/-- The gated contraction of the four argument arrays as launched. -/
def whole (c : Dev nD) : S16x2048x1024.Idx → EReal :=
  result (m ((c : Thread nD τ).loc main_arg0)) (m ((c : Thread nD τ).loc main_arg1))
    (m ((c : Thread nD τ).loc main_arg2)) (m ((c : Thread nD τ).loc main_arg3))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The block indices over the grid -/

/-- Decided over the 32 points: the slab of x moves with the output tile; the Wx tile follows the output's row block;
    Wy and Wz stay whole; every window sits at column block 0; and the output's block indices stay in range. -/
theorem grid_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_2.index t (0 : Fin 2) = win0_4.index t (1 : Fin 3) ∧ win0_2.index t (1 : Fin 2) = 0
    ∧ win0_3.index t (0 : Fin 2) = 0 ∧ win0_3.index t (1 : Fin 2) = 0 :=
  (by decide +kernel : ∀ t : Fin grid0.N, _)

/-- Every (batch, row half) is some point's output block. -/
theorem tile_onto : ∀ (b : Fin 16) (h : Fin 2), ∃ t : Fin cfg0.N, win0_4.index t = ![b.val, h.val, 0] :=
  (by decide +kernel : ∀ (b : Fin 16) (h : Fin 2), ∃ t : Fin grid0.N, win0_4.index t = ![b.val, h.val, 0])

/-! ## The two arrays the host wrote before the region -/

/-- The array window 1 stages is Wy: the host's narrowing of the format is the identity on extended reals. -/
theorem wy_array (c : Dev nD) : (V m c main_v0 : S1024x32.Idx → EReal) = m ((c : Thread nD τ).loc main_arg2) := by
  dsimp only [Gen.V, Gen.hostOps0]; after_results; rfl

/-- The array window 3 stages is Wz, likewise. -/
theorem wz_array (c : Dev nD) : (V m c main_v1 : S1024x32.Idx → EReal) = m ((c : Thread nD τ).loc main_arg3) := by
  dsimp only [Gen.V, Gen.hostOps0]; after_results; rfl

/-! ## Each input block read off its argument: block index × block size + the coordinate inside the block -/

/-- The slab of x at point `t`. -/
theorem slab_apply (c : Dev nD) (t : Fin cfg0.N) (y : S1x1024x1024.Idx) (i : S16x2048x1024.Idx)
    (h0 : (i 0).val = win0_0.index t (0 : Fin 3) * 1 + 1 * (y 0).val)
    (h1 : (i 1).val = win0_0.index t (1 : Fin 3) * 1024 + 1 * (y 1).val)
    (h2 : (i 2).val = win0_0.index t (2 : Fin 3) * 1024 + 1 * (y 2).val) :
    (iblk m c 0 t : Vec Ideal S1x1024x1024 .f32) y = m ((c : Thread nD τ).loc main_arg0) i := by
  unfold iblk
  rw [View.read_apply]
  show V m c main_arg0 _ = m ((c : Thread nD τ).loc main_arg0) _
  refine (congrFun (V_main_arg0 m c) _).trans ?_
  congr 1
  funext a
  apply Fin.ext
  match a with
  | ⟨0, _⟩ => show win0_0.index t (0 : Fin 3) * 1 + 1 * (y 0).val = (i 0).val; exact h0.symm
  | ⟨1, _⟩ => show win0_0.index t (1 : Fin 3) * 1024 + 1 * (y 1).val = (i 1).val; exact h1.symm
  | ⟨2, _⟩ => show win0_0.index t (2 : Fin 3) * 1024 + 1 * (y 2).val = (i 2).val; exact h2.symm

/-- The block of Wy at point `t`. -/
theorem wy_apply (c : Dev nD) (t : Fin cfg0.N) (y i : S1024x32.Idx)
    (h0 : (i 0).val = win0_1.index t (0 : Fin 2) * 1024 + 1 * (y 0).val)
    (h1 : (i 1).val = win0_1.index t (1 : Fin 2) * 32 + 1 * (y 1).val) :
    (iblk m c 1 t : Vec Ideal S1024x32 .bf16) y = m ((c : Thread nD τ).loc main_arg2) i := by
  unfold iblk
  rw [View.read_apply]
  show V m c main_v0 _ = m ((c : Thread nD τ).loc main_arg2) _
  refine (congrFun (wy_array m c) _).trans ?_
  congr 1
  funext a
  apply Fin.ext
  match a with
  | ⟨0, _⟩ => show win0_1.index t (0 : Fin 2) * 1024 + 1 * (y 0).val = (i 0).val; exact h0.symm
  | ⟨1, _⟩ => show win0_1.index t (1 : Fin 2) * 32 + 1 * (y 1).val = (i 1).val; exact h1.symm

/-- The tile of Wx at point `t`. -/
theorem gate_apply (c : Dev nD) (t : Fin cfg0.N) (y : S1024x32.Idx) (i : S2048x32.Idx)
    (h0 : (i 0).val = win0_2.index t (0 : Fin 2) * 1024 + 1 * (y 0).val)
    (h1 : (i 1).val = win0_2.index t (1 : Fin 2) * 32 + 1 * (y 1).val) :
    (iblk m c 2 t : Vec Ideal S1024x32 .f32) y = m ((c : Thread nD τ).loc main_arg1) i := by
  unfold iblk
  rw [View.read_apply]
  show V m c main_arg1 _ = m ((c : Thread nD τ).loc main_arg1) _
  refine (congrFun (V_main_arg1 m c) _).trans ?_
  congr 1
  funext a
  apply Fin.ext
  match a with
  | ⟨0, _⟩ => show win0_2.index t (0 : Fin 2) * 1024 + 1 * (y 0).val = (i 0).val; exact h0.symm
  | ⟨1, _⟩ => show win0_2.index t (1 : Fin 2) * 32 + 1 * (y 1).val = (i 1).val; exact h1.symm

/-- The block of Wz at point `t`. -/
theorem wz_apply (c : Dev nD) (t : Fin cfg0.N) (y i : S1024x32.Idx)
    (h0 : (i 0).val = win0_3.index t (0 : Fin 2) * 1024 + 1 * (y 0).val)
    (h1 : (i 1).val = win0_3.index t (1 : Fin 2) * 32 + 1 * (y 1).val) :
    (iblk m c 3 t : Vec Ideal S1024x32 .bf16) y = m ((c : Thread nD τ).loc main_arg3) i := by
  unfold iblk
  rw [View.read_apply]
  show V m c main_v1 _ = m ((c : Thread nD τ).loc main_arg3) _
  refine (congrFun (wz_array m c) _).trans ?_
  congr 1
  funext a
  apply Fin.ext
  match a with
  | ⟨0, _⟩ => show win0_3.index t (0 : Fin 2) * 1024 + 1 * (y 0).val = (i 0).val; exact h0.symm
  | ⟨1, _⟩ => show win0_3.index t (1 : Fin 2) * 32 + 1 * (y 1).val = (i 1).val; exact h1.symm

/-! ## What a point stores is the gated contraction at the tile's place in the array -/

/-- At point `t`, the body's stored value at the tile index `y` is the gated contraction's entry at the array index `e`
    that `y` has in the output block of `t`. -/
theorem point_eq (c : Dev nD) (t : Fin cfg0.N) (y : S1x1024x1024.Idx) (e : S16x2048x1024.Idx)
    (he0 : (e 0).val = win0_4.index t (0 : Fin 3) * 1 + 1 * (y 0).val)
    (he1 : (e 1).val = win0_4.index t (1 : Fin 3) * 1024 + 1 * (y 1).val)
    (he2 : (e 2).val = win0_4.index t (2 : Fin 3) * 1024 + 1 * (y 2).val) :
    k0_pay1 (F := Ideal) (iblk m c 0 t) (iblk m c 1 t) (iblk m c 2 t) (iblk m c 3 t) y = whole m c e := by
  obtain ⟨g00, g01, g02, g42, g10, g11, g20, g21, g30, g31⟩ := grid_facts t
  have hy0 : (y 0).val < 1 := (y 0).isLt
  refine (Body.tile_at (iblk m c 0 t) (iblk m c 1 t) (iblk m c 2 t) (iblk m c 3 t) y).trans ?_
  simp only [whole, result, entry, feature]
  refine Finset.sum_congr rfl fun f _ => ?_
  refine Body.mul_congr (Body.mul_congr (Finset.sum_congr rfl fun j _ => Body.mul_congr ?_ ?_) ?_) ?_
  · exact slab_apply m c t (ix3 (0 : Fin 1) (y 1) j) (ix3 (e 0) (e 1) j)
      (by show (e 0).val = win0_0.index t (0 : Fin 3) * 1 + 1 * 0; omega)
      (by show (e 1).val = win0_0.index t (1 : Fin 3) * 1024 + 1 * (y 1).val; omega)
      (by show j.val = win0_0.index t (2 : Fin 3) * 1024 + 1 * j.val; omega)
  · exact wy_apply m c t (ix2 j f) (ix2 j f)
      (by show j.val = win0_1.index t (0 : Fin 2) * 1024 + 1 * j.val; omega)
      (by show f.val = win0_1.index t (1 : Fin 2) * 32 + 1 * f.val; omega)
  · exact gate_apply m c t (ix2 (y 1) f) (ix2 (e 1) f)
      (by show (e 1).val = win0_2.index t (0 : Fin 2) * 1024 + 1 * (y 1).val; omega)
      (by show f.val = win0_2.index t (1 : Fin 2) * 32 + 1 * f.val; omega)
  · exact wz_apply m c t (ix2 (y 2) f) (ix2 (e 2) f)
      (by show (e 2).val = win0_3.index t (0 : Fin 2) * 1024 + 1 * (y 2).val; omega)
      (by show f.val = win0_3.index t (1 : Fin 2) * 32 + 1 * f.val; omega)

/-- WHAT POINT `t` WRITES BACK is block `t` of the gated contraction of the arguments. -/
theorem flushed_eq (c : Dev nD) (t : Fin cfg0.N) :
    (dats m 0 c).flushed 4 t = ((cfg0.win 4).blk t).view.read (Elt Ideal) (whole m c) := by
  rw [flushed4]
  unfold out0_4
  rw [View.canon_unit_zero hz3]
  simp only [View.ld_unit_zero (S := S1x1024x1024) hz3, View.ld_unit_zero (S := S1024x32) hz2]
  funext y
  exact point_eq m c t y (((cfg0.win 4).blk t).view.emb y) rfl rfl rfl

/-! ## The tiles cover the array -/

/-- An index of the array is in point `t`'s block iff each coordinate is in the block's range on its axis. -/
theorem mem_blk (t : Fin cfg0.N) (i : S16x2048x1024.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v2).slice (win0_4.rect t)).set ↔ _
  rw [View.set_slice_whole, Rect.mem_set_unit]
  exact Iff.rfl

/-- Every index of the result array lies in the block of the point (batch, row half) it belongs to. -/
theorem cover (i : S16x2048x1024.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 1024 := (i 2).isLt
  obtain ⟨t, ht⟩ := tile_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-! ## The array after the run, and the run -/

/-- THE RESULT ARRAY after the run is the gated contraction of the arguments as launched. -/
theorem final (c : Dev nD) : (dats m 0 c).arrAt 4 cfg0.N = whole m c :=
  (dats m 0 c).arrAt_eq_of_cover 4 (whole m c) (fun t _ => flushed_eq m c t) (cover)

/-- The kernel's run: it terminates with the result array at the gated contraction and the arguments unchanged. -/
theorem run : θ_run defs (onTc (τ := τ) (main (F := Ideal))) ⟨m, fun _ => 0, ρ⟩ fun r => ∀ c : Dev nD,
      r.2.mem ((c : Thread nD τ).loc main_v2) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefIsSpec.lean ====
/-
  The reference computes the gated contraction.

  The reference's five host operations are: a contraction of x's last axis with Wy's first (a [16, 2048, 32] array); Wx
  viewed [1, 2048, 32] and repeated over the 16 batches; their elementwise product; and a contraction of that product's
  last axis with Wz's last. Read at (b, i, k), with each contraction a plain sum and each broadcast a re-read of Wx at
  (i, f), that is the specification's `entry b i k`, term for term.
-/
import proofs.«136521_j22634477650317_2_alg».proof.Proof.Gen.ReferenceIdeal.Read
import proofs.«136521_j22634477650317_2_alg».proof.Proof.Spec

open scoped BigOperators

noncomputable section

namespace Cert.ReferenceIdeal.Whole

open Cert.ReferenceIdeal Cert.ReferenceIdeal.Read Cert.GatedContraction Idealize.ShloMosaic Idealize.ShloMosaic.ValueIdx

/-- Equal factors give equal products. -/
theorem mul_congr {a a' b b' : EReal} (h₁ : a = a') (h₂ : b = b') : a * b = a' * b' := by rw [h₁, h₂]

/-- The reference's result array is the gated contraction of its four arguments. -/
theorem reference_eq (x0 : (⟨S16x2048x1024, .f32⟩ : BufTy).Contents (Elt Ideal)) (x1 : (⟨S2048x32, .f32⟩ : BufTy).Contents (Elt Ideal))
    (x2 x3 : (⟨S1024x32, .f32⟩ : BufTy).Contents (Elt Ideal)) :
    val_main_v4 (F := Ideal) x0 x1 x2 x3 = result x0 x1 x2 x3 := by
  funext idx
  obtain ⟨b, i, k, rfl⟩ : ∃ (b : Fin 16) (i : Fin 2048) (k : Fin 1024), idx = ix3 b i k := ⟨idx 0, idx 1, idx 2, eq_ix3 idx⟩
  rw [val_main_v4_apply, result_ix3]
  unfold entry feature
  refine Finset.sum_congr rfl fun f _ => ?_
  have e3 : ridx_main_v4 (ix3 b i k) f = ix2 k f :=
    funext fun a => Fin.ext (by match a with | ⟨0, _⟩ => rfl | ⟨1, _⟩ => rfl)
  have eg : idx_main_v1 (idx_main_v2 (lidx_main_v4 (ix3 b i k) f)) = ix2 i f :=
    funext fun a => Fin.ext (by match a with | ⟨0, _⟩ => rfl | ⟨1, _⟩ => rfl)
  refine mul_congr ?_ (congrArg x3 e3)
  rw [val_main_v3_apply, val_main_v0_apply, val_main_v2_apply, val_main_v1_apply, eg]
  refine mul_congr (Finset.sum_congr rfl fun j _ => ?_) rfl
  have el : lidx_main_v0 (lidx_main_v4 (ix3 b i k) f) j = ix3 b i j :=
    funext fun a => Fin.ext (by match a with | ⟨0, _⟩ => rfl | ⟨1, _⟩ => rfl | ⟨2, _⟩ => rfl)
  have er : ridx_main_v0 (lidx_main_v4 (ix3 b i k) f) j = ix2 j f :=
    funext fun a => Fin.ext (by match a with | ⟨0, _⟩ => rfl | ⟨1, _⟩ => rfl)
  rw [el, er]

end Cert.ReferenceIdeal.Whole

end
-- ==== Proof.lean ====
/-
  A gated two-stage contraction, tiled, against the same contraction written with two einsums.

  For a batch x[b, i, j] (16 × 2048 × 1024) and factor matrices Wx[i, f], Wy[j, f], Wz[k, f] over 32 features, both programs
  compute

      out[b, i, k] = ∑ f, ((∑ j, x[b, i, j] · Wy[j, f]) · Wx[i, f]) · Wz[k, f].

  The kernel does it tile by tile: on a 16 × 2 grid, point (b, h) takes rows 1024h … 1024h + 1023 of batch b, multiplies
  them by Wy into a zero accumulator, gates the [1024, 32] product by the same rows of Wx, and multiplies by Wz along
  Wz's second axis, again into a zero accumulator; the host has re-typed Wy and Wz to a narrower float format first, and
  the body narrows its two left operands. The reference contracts the whole arrays: x with Wy along j, times Wx repeated
  over the batches, then with Wz along f.

  At the ideal values every float is an extended real, a change of float format is the identity, and a matrix product
  into a zero accumulator and the host's contraction are both the plain sum over the contracted index. The two sides
  then form the same sums in the same order, the inner sum over j first, then the gate, then the sum over f: nothing is
  re-associated and no factor crosses a sum, so the equation holds for all extended reals and the finiteness of the inputs
  is never used. What is left is bookkeeping of positions: entry (p, q) of point (b, h)'s tile is entry (b, 1024h + p, q)
  of the array, and the 32 tiles cover it.

  The idealized kernel has the kernel's own operations, one for one, read at the ideal values: no operation was
  replaced by another, so there is no rewrite to account for between the two.
-/
import proofs.«136521_j22634477650317_2_alg».proof.Defs
import proofs.«136521_j22634477650317_2_alg».proof.Proof.Gen.Kernel
import proofs.«136521_j22634477650317_2_alg».proof.Proof.Gen.Kernel.Frame
import proofs.«136521_j22634477650317_2_alg».proof.Proof.Gen.KernelIdeal
import proofs.«136521_j22634477650317_2_alg».proof.Proof.Gen.KernelIdeal.Frame
import proofs.«136521_j22634477650317_2_alg».proof.Proof.Gen.KernelIdeal.Value
import proofs.«136521_j22634477650317_2_alg».proof.Proof.Gen.ReferenceIdeal
import proofs.«136521_j22634477650317_2_alg».proof.Proof.Gen.ReferenceIdeal.Run
import proofs.«136521_j22634477650317_2_alg».proof.Proof.Gen.ReferenceIdeal.Read
import proofs.«136521_j22634477650317_2_alg».proof.Proof.Gen.Pre_finite_inputs
import proofs.«136521_j22634477650317_2_alg».proof.Proof.Blocks
import proofs.«136521_j22634477650317_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is five host operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel replaces no operation of the kernel: there is no rewrite to account for. -/
theorem preserves : Cert.preserves_Kernel_KernelIdeal := trivial

/-- From memories that agree on the four arguments, the kernel's result array ends at the gated contraction of its
    arguments and the reference's at the gated contraction of its own: one array. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Whole.reference_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
